-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .i1⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S32768x1024, .f32⟩
  | .hbm, ⟨11, _⟩ => ⟨S1x1024, .f32⟩
  | .hbm, ⟨12, _⟩ => ⟨S32768x1024, .f32⟩
  | .hbm, ⟨13, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.Pieces.lean ====
/-
  What one run of the body leaves behind, as values.

  The body has two control cases. At the grid's first point it reads the whole weight matrix `w`, forms
  `B = (s(w))ᵀ` (`s` the sign with zero sent to one; the payload `k0_pay1`) and stores it into the scratch
  matrix that stays resident between points; at every point it then multiplies the point's row block of `x`
  by the scratch matrix and adds the bias row (the payload `k0_pay2`). Each store covers its whole buffer and
  each load reads a whole buffer, so:
    • at the first point the scratch ends holding `k0_pay1 w`, and the output block is `k0_pay2 x (k0_pay1 w) b`
      — the product reads back exactly what was just stored;
    • at a later point the scratch is untouched and the output block is `k0_pay2 x S b` of whatever matrix `S`
      the scratch held when the point began.
  Stated for any float instance: nothing here looks inside the payloads.
-/
import proofs.«128803_j81999515615872_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-buffer rectangle. -/
theorem hz : (![0, 0] : Fin 2 → Nat) = fun _ => 0 := funext fun a => by fin_cases a <;> rfl

/-- A later point: the output block is the product of the row block `x0` with the matrix `xs` the scratch holds,
    plus the bias row `x2` — the one covering store's payload, each load a whole buffer. -/
theorem out_later (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1024x1024 .f32) (h4 : a4.IsWhole) (a5 : Memref sig .tc .vmem S1024x1024 .bf16) (h5 : a5.IsWhole) (hc : ¬cond0_0 i)
    (x0 : Vec F S1024x1024 .f32) (x1 : Vec F S1024x1024 .f32) (x2 : Vec F S1x1024 .f32) (xs : Vec F S1024x1024 .bf16) :
    out0_B_3 c i a1 h1 a2 h2 a3 h3 a4 h4 a5 h5 hc x0 x1 x2 xs = k0_pay2 x0 xs x2 := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero hz]
  simp only [View.readAt_eq_ld, h1.read_unread, h3.read_unread, h5.read_unread,
    View.ld_unit_zero (S := S1024x1024) hz, View.ld_unit_zero (S := S1x1024) hz]

/-- The first point: the matrix the product reads is the one just stored, `k0_pay1` of the weights `x1`. -/
theorem out_first (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1024x1024 .f32) (h4 : a4.IsWhole) (a5 : Memref sig .tc .vmem S1024x1024 .bf16) (h5 : a5.IsWhole) (hc : cond0_0 i)
    (x0 : Vec F S1024x1024 .f32) (x1 : Vec F S1024x1024 .f32) (x2 : Vec F S1x1024 .f32) :
    out0_A_3 c i a1 h1 a2 h2 a3 h3 a4 h4 a5 h5 hc x0 x1 x2 = k0_pay2 x0 (k0_pay1 x1) x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz, View.readCov_unit_zero (S := S1024x1024) _ hz]
  simp only [View.readAt_eq_ld, h1.read_unread, h2.read_unread, h3.read_unread,
    View.ld_unit_zero (S := S1024x1024) hz, View.ld_unit_zero (S := S1x1024) hz]

/-- The first point leaves `k0_pay1` of the weights in the scratch. -/
theorem scratch_first (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1024x1024 .f32) (h4 : a4.IsWhole) (a5 : Memref sig .tc .vmem S1024x1024 .bf16) (h5 : a5.IsWhole) (hc : cond0_0 i)
    (x0 : Vec F S1024x1024 .f32) (x1 : Vec F S1024x1024 .f32) (x2 : Vec F S1x1024 .f32) :
    sout0_A_0 c i a1 h1 a2 h2 a3 h3 a4 h4 a5 h5 hc x0 x1 x2 = k0_pay1 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h2.read_unread, View.ld_unit_zero (S := S1024x1024) hz]

end Cert.KernelIdeal.Pieces

end
-- ==== Proof.Carried.lean ====
/-
  What is resident between grid points, and what every point writes.

  The grid has 32 points, one per block of 1024 rows. The weight window's block index is (0, 0) at every point, and
  its block is the whole weight array `w`. Only the first point stores into the scratch matrix, and it stores
  `k0_pay1 w`; every later point leaves the scratch as it found it. So by induction on the point the scratch holds
  `k0_pay1 w` after EVERY point, and every point's output block — the first point reading back what it has just
  stored, a later point reading what the point before left — is the same function of its blocks:
  `k0_pay2 (block of x) (k0_pay1 w) (bias row)`. Stated for any float instance.
-/
import proofs.«128803_j81999515615872_1_alg».proof.Proof.Gen.KernelIdeal.Value
import proofs.«128803_j81999515615872_1_alg».proof.Proof.Pieces

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ) (ρ : Dev nD → PrngReg)

/-- The printed index maps over the grid: the windows of `x` and of the result move down one block of rows per
    point; the windows of the weights and of the bias row never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block is the whole weight array, at every point. -/
theorem weights_block (c : Dev nD) (t : Fin cfg0.N) : (iblk m c 1 t : Vec F S1024x1024 .f32) = V m c main_arg1 := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- THE RESIDENT MATRIX: after every point the scratch holds `k0_pay1` of the weights — stored at the first point,
    kept by every later one. -/
theorem resident (c : Dev nD) : ∀ (n : ℕ) (h : n < cfg0.N), (outsAt0 m c n h).2 = k0_pay1 (V m c main_arg1)
  | 0, h => by
    rw [outsAt0_A m c ⟨0, h⟩ rfl]
    dsimp only
    rw [Pieces.scratch_first, weights_block]
  | n + 1, h => by
    have hN : cfg0.N = 32 := N_0
    have hB : ¬(⟨n + 1, h⟩ : Fin cfg0.N).val % 32 = 0 := by dsimp only; omega
    rw [outsAt0_B m c ⟨n + 1, h⟩ hB]
    unfold sout0_B_0
    dsimp only
    simp only [Nat.add_sub_cancel]
    exact resident c n _

/-- WHAT EVERY POINT COMPUTES: its block of `x` against the resident matrix, plus the bias row. -/
theorem block_after (c : Dev nD) (t : Fin cfg0.N) :
    (outsAt0 m c t.val t.isLt).1 = k0_pay2 (iblk m c 0 t) (k0_pay1 (V m c main_arg1)) (iblk m c 2 t) := by
  by_cases h0 : t.val % 32 = 0
  · rw [outsAt0_A m c t h0]
    dsimp only
    rw [Pieces.out_first, weights_block]
  · rw [outsAt0_B m c t h0]
    dsimp only
    rw [Pieces.out_later, resident]

end Cert.KernelIdeal.Carried

end
-- ==== Proof.Spec.lean ====
/-
  The function both programs compute, over the extended reals.

  A weight `w` is binarized to `β(w)`: its sign, with the sign's zero replaced by one — so `β(w) = -1` for
  `w < 0` and `β(w) = 1` otherwise, at the two infinities too. The result at row `r`, column `o` is

      y[r, o] = (∑ₖ x[r, k] · β(w[o, k])) + b[o],     k over the 1024 input features:

  a row of `x` against a ROW of the binarized weights (the weights are stored output-major), plus the bias of
  the column. The sign's zero and the replacement value are kept as the 32-bit words the programs write; the same
  words stand on both sides and are never evaluated.
-/
import Idealize.ShloMosaic.PureOps.Ideal
import Idealize.ShloMosaic.PureOps.Ideal.Laws
import Idealize.ShloMosaic.Lib.ValueIdx

noncomputable section

namespace BinLinear

open Idealize.ShloMosaic Idealize.ShloMosaic.ValueIdx

/-- The binarized weight: the sign of `w`, one where that sign is zero. -/
def beta (w : EReal) : EReal :=
  Scalar.select (Ideal.cmp .oeq (Ideal.sign w) (Ideal.ofBits .f32 0x00000000#32)) (Ideal.ofBits .f32 0x3F800000#32)
    (Ideal.sign w)

/-- The layer's output: each row of `x` against each row of the binarized weights, plus the bias. -/
def out (x : (⟨2, ![32768, 1024]⟩ : Shape).Idx → EReal) (w : (⟨2, ![1024, 1024]⟩ : Shape).Idx → EReal)
    (b : (⟨1, ![1024]⟩ : Shape).Idx → EReal) : (⟨2, ![32768, 1024]⟩ : Shape).Idx → EReal :=
  fun i => (∑ k : Fin 1024, x (ix2 (i 0) k) * beta (w (ix2 (i 1) k))) + b (ix1 (i 1))

theorem out_apply (x : (⟨2, ![32768, 1024]⟩ : Shape).Idx → EReal) (w : (⟨2, ![1024, 1024]⟩ : Shape).Idx → EReal)
    (b : (⟨1, ![1024]⟩ : Shape).Idx → EReal) (r : Fin 32768) (o : Fin 1024) :
    out x w b (ix2 r o) = (∑ k : Fin 1024, x (ix2 r k) * beta (w (ix2 o k))) + b (ix1 o) := rfl

end BinLinear

end
-- ==== Proof.Payload.lean ====
/-
  The body's two payloads, read at an index over the extended reals.

  `k0_pay1 w` is the matrix the first point stores: elementwise, the sign of `w` as the kernel spells it (one carrying
  `w`'s sign where `|w| > 0`, else `w` itself — the extended reals' sign function), its zero replaced by one, then
  the matrix TRANSPOSED; the change of float format is the identity here. So its entry `(k, o)` is `β(w[o, k])`.

  `k0_pay2 x s b` is an output block: the product of the block `x` with the resident matrix `s` into a zero
  accumulator — contraction of axis 1 of `x` with axis 0 of `s`, so entry `(p, o)` is the sum over `k` of
  `x[p, k] · s[k, o]` — plus the bias row broadcast down the block.

  Together: `k0_pay2 x (k0_pay1 w) b` at `(p, o)` is `(∑ₖ x[p, k] · β(w[o, k])) + b[0, o]`.
-/
import proofs.«128803_j81999515615872_1_alg».proof.Proof.Gen.KernelIdeal.Skeleton
import proofs.«128803_j81999515615872_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- The stored matrix at `(k, o)` is the binarized weight `β(w[o, k])`: the transpose of the elementwise term. -/
theorem binarized_apply (w : Vec Ideal S1024x1024 .f32) (k o : Fin 1024) :
    k0_pay1 (F := Ideal) w (ix2 k o) = BinLinear.beta (w (ix2 o k)) := by
  unfold k0_pay1
  rw [shapeCast_self, truncf_apply, transpose_ix2_apply]
  unfold BinLinear.beta
  rw [← Ideal.jnp_sign_eq_sign_f32 (w (ix2 o k))]
  rfl

abbrev D := dot_S1024x1024_S1024x1024_S1024x1024_1_0_0_1_n_n

theorem lhs_row (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_contr (i : S1024x1024.Idx) (q : D.contr.Idx) : (D.lhsIdx i q 1).val = (q ⟨0, by decide⟩).val :=
  D.lhsIdx_val_of_single rfl i q
theorem rhs_contr (i : S1024x1024.Idx) (q : D.contr.Idx) : (D.rhsIdx i q 0).val = (q ⟨0, by decide⟩).val :=
  D.rhsIdx_val_of_single rfl i q
theorem rhs_col (i : S1024x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- The block product into the zero block, at `(p, o)`: the sum over `k` of `x[p, k] · s[k, o]`. -/
theorem product_apply (x : FVec Ideal S1024x1024 .bf16) (s : FVec Ideal S1024x1024 .bf16) (p o : Fin 1024) :
    matmul D none x s (constant S1024x1024 .f32 0x00000000#32) (ix2 p o) = ∑ k : Fin 1024, x (ix2 p k) * s (ix2 k o) := by
  simp only [matmul]
  rw [Ideal.matmul_constant_zero_apply, ← Equiv.sum_comp (ValueIdx.contrEquiv1 D 1024 rfl rfl).symm]
  refine Finset.sum_congr rfl fun k _ => ?_
  have hk := ValueIdx.contrEquiv1_symm_val D 1024 rfl rfl k
  have el : D.lhsIdx (ix2 p o) ((ValueIdx.contrEquiv1 D 1024 rfl rfl).symm k) = ix2 p k := funext fun a => Fin.ext (by
    match a with
    | ⟨0, _⟩ => exact lhs_row _ _
    | ⟨1, _⟩ => exact (lhs_contr _ _).trans hk)
  have er : D.rhsIdx (ix2 p o) ((ValueIdx.contrEquiv1 D 1024 rfl rfl).symm k) = ix2 k o := funext fun a => Fin.ext (by
    match a with
    | ⟨0, _⟩ => exact (rhs_contr _ _).trans hk
    | ⟨1, _⟩ => exact rhs_col _ _)
  rw [el, er]

/-- The bias row broadcast down the block reads `b[0, o]` at `(p, o)`. -/
theorem bias_apply (b : FVec Ideal S1x1024 .f32) (p o : Fin 1024) :
    broadcastTo S1024x1024 b broadcasts_S1x1024_S1024x1024 (ix2 p o) = b (ix2 0 o) :=
  broadcastTo_apply b broadcasts_S1x1024_S1024x1024 (ix2 p o) (ix2 0 o) (fun a => match a with
    | ⟨0, _⟩ => rfl
    | ⟨1, _⟩ => rfl)

/-- The output block at `(p, o)`: the row `p` of the block of `x` against column `o` of the resident matrix, plus the bias. -/
theorem block_apply (x : Vec Ideal S1024x1024 .f32) (s : Vec Ideal S1024x1024 .bf16) (b : Vec Ideal S1x1024 .f32) (p o : Fin 1024) :
    k0_pay2 (F := Ideal) x s b (ix2 p o) = (∑ k : Fin 1024, x (ix2 p k) * s (ix2 k o)) + b (ix2 0 o) := by
  unfold k0_pay2
  rw [shapeCast_self, addf_apply, product_apply, bias_apply]
  rfl

/-- An output block over the binarized weights: row `p` of the block of `x` against ROW `o` of `β(w)`, plus the bias. -/
theorem layer_block_apply (x w : Vec Ideal S1024x1024 .f32) (b : Vec Ideal S1x1024 .f32) (p o : Fin 1024) :
    k0_pay2 (F := Ideal) x (k0_pay1 w) b (ix2 p o) = (∑ k : Fin 1024, x (ix2 p k) * BinLinear.beta (w (ix2 o k))) + b (ix2 0 o) := by
  rw [block_apply]
  simp only [binarized_apply]

end Cert.KernelIdeal.Payload

end
-- ==== Proof.KernelLayer.lean ====
/-
  The kernel's result array is the layer's function of the argument arrays.

  At point `t` the window of `x` stages rows `1024·t … 1024·t + 1023`, the bias window stages the one row the host
  reshaped the bias vector into, and the point writes back rows `1024·t … 1024·t + 1023` of the result. By the
  payloads read at an index, entry `(p, o)` of what point `t` writes is
  `(∑ₖ x[1024·t + p, k] · β(w[o, k])) + b[o]` — the layer's entry `(1024·t + p, o)`: each point writes its block of ONE
  function of the arguments. The 32 blocks cover the array (row `r` lies in the block of point `r / 1024`), so after the
  run the whole result array is that function.
-/
import proofs.«128803_j81999515615872_1_alg».proof.Proof.Carried
import proofs.«128803_j81999515615872_1_alg».proof.Proof.Payload
import proofs.«128803_j81999515615872_1_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

variable (m : (ℓ : Loc nD τ sig) → Buf (Elt Ideal) ℓ) (ρ : Dev nD → PrngReg)

/-- The layer's function of the three argument arrays as launched: what the result array ends holding. -/
abbrev result (c : Dev nD) : Buf (Elt Ideal) ((c : Thread nD τ).loc main_v1) :=
  BinLinear.out (m ((c : Thread nD τ).loc main_arg0)) (m ((c : Thread nD τ).loc main_arg1)) (m ((c : Thread nD τ).loc main_arg2))

/-- Row `p` of the block of `x` at point `t` is row `1024·t + p` of `x`. -/
theorem x_block (c : Dev nD) (t : Fin cfg0.N) (p k : Fin 1024) (r : Fin 32768) (hr : r.val = t.val * 1024 + p.val) :
    (iblk m c 0 t : Vec Ideal S1024x1024 .f32) (ix2 p k) = m ((c : Thread nD τ).loc main_arg0) (ix2 r k) := by
  obtain ⟨e0, e1, -⟩ := Carried.idx_facts t
  unfold iblk
  rw [View.read_apply]
  show V m c main_arg0 _ = _
  rw [V_main_arg0]
  congr 1
  funext a
  apply Fin.ext
  match a with
  | ⟨0, _⟩ => show win0_0.index t 0 * 1024 + 1 * p.val = r.val; rw [e0, hr]; omega
  | ⟨1, _⟩ => show win0_0.index t 1 * 1024 + 1 * k.val = k.val; rw [e1]; omega

/-- The bias window's row, at every point, is the bias vector: the host reshaped `[1024]` to `[1, 1024]`. -/
theorem bias_block (c : Dev nD) (t : Fin cfg0.N) (o : Fin 1024) :
    (iblk m c 2 t : Vec Ideal S1x1024 .f32) (ix2 0 o) = m ((c : Thread nD τ).loc main_arg2) (ix1 o) := by
  obtain ⟨-, -, -, -, e0, e1, -⟩ := Carried.idx_facts t
  have e : (V m c main_v0 : S1x1024.Idx → EReal)
      = shapeCast S1x1024 (m ((c : Thread nD τ).loc main_arg2)) shapeCasts_S1024_S1x1024 := by
    dsimp only [Gen.V, Gen.hostOps0]; after_results; rfl
  have hi : ((cfg0.win 2).blk t).view.emb (ix2 (0 : Fin 1) o) = ix2 (0 : Fin 1) o := by
    funext a
    apply Fin.ext
    match a with
    | ⟨0, _⟩ => show win0_2.index t 0 * 1 + 1 * 0 = 0; rw [e0]
    | ⟨1, _⟩ => show win0_2.index t 1 * 1024 + 1 * o.val = o.val; rw [e1]; omega
  unfold iblk
  rw [View.read_apply]
  show V m c main_v0 (((cfg0.win 2).blk t).view.emb (ix2 (0 : Fin 1) o)) = _
  rw [hi, e, shapeCast_a_1a_apply]

/-- One entry of a block, over plain arrays: if row `p` of the block `xb` is row `r` of `X` and the bias row `bb` is `B`,
    the block's entry `(p, o)` is the layer's entry `(r, o)`. -/
theorem entry_eq (X : S32768x1024.Idx → EReal) (W : S1024x1024.Idx → EReal) (B : S1024.Idx → EReal)
    (xb : Vec Ideal S1024x1024 .f32) (bb : Vec Ideal S1x1024 .f32) (p o : Fin 1024) (r : Fin 32768)
    (hx : ∀ k : Fin 1024, xb (ix2 p k) = X (ix2 r k)) (hb : bb (ix2 0 o) = B (ix1 o)) :
    k0_pay2 (F := Ideal) xb (k0_pay1 (F := Ideal) W) bb (ix2 p o) = BinLinear.out X W B (ix2 r o) := by
  rw [Payload.layer_block_apply, BinLinear.out_apply, hb]
  simp only [hx]

/-- WHAT POINT `t` WRITES BACK is block `t` of the layer's function. -/
theorem flushed_eq (c : Dev nD) (t : Fin cfg0.N) :
    (dats m 0 c).flushed 3 t = ((cfg0.win 3).blk t).view.read (Elt Ideal) (result m c) := by
  rw [Value.flushed3, Carried.block_after, V_main_arg1]
  funext j
  have hj0 : (j 0).val < 1024 := (j 0).isLt
  have hj1 : (j 1).val < 1024 := (j 1).isLt
  have ht : t.val < 32 := lt_of_lt_of_eq t.isLt N_0
  obtain ⟨-, -, -, -, -, -, e0, e1⟩ := Carried.idx_facts t
  have hi : ((cfg0.win 3).blk t).view.emb j
      = ix2 (⟨t.val * 1024 + (j 0).val, by omega⟩ : Fin 32768) (⟨(j 1).val, hj1⟩ : Fin 1024) := by
    funext a
    apply Fin.ext
    match a with
    | ⟨0, _⟩ => show win0_3.index t 0 * 1024 + 1 * (j 0).val = t.val * 1024 + (j 0).val; rw [e0]; omega
    | ⟨1, _⟩ => show win0_3.index t 1 * 1024 + 1 * (j 1).val = (j 1).val; rw [e1]; omega
  have hjj : j = ix2 (⟨(j 0).val, hj0⟩ : Fin 1024) (⟨(j 1).val, hj1⟩ : Fin 1024) := by
    funext a
    match a with
    | ⟨0, _⟩ => rfl
    | ⟨1, _⟩ => rfl
  rw [View.read_apply]
  show k0_pay2 (iblk m c 0 t) (k0_pay1 (m ((c : Thread nD τ).loc main_arg1))) (iblk m c 2 t) j
    = result m c (((cfg0.win 3).blk t).view.emb j)
  refine (congrArg (k0_pay2 (F := Ideal) (iblk m c 0 t) (k0_pay1 (m ((c : Thread nD τ).loc main_arg1))) (iblk m c 2 t)) hjj).trans ?_
  refine (entry_eq (m ((c : Thread nD τ).loc main_arg0)) (m ((c : Thread nD τ).loc main_arg1)) (m ((c : Thread nD τ).loc main_arg2))
    (iblk m c 0 t) (iblk m c 2 t) ⟨(j 0).val, hj0⟩ ⟨(j 1).val, hj1⟩ ⟨t.val * 1024 + (j 0).val, by omega⟩
    (fun k => x_block m c t _ k _ rfl) (bias_block m c t _)).trans ?_
  exact (congrArg (result m c) hi).symm

/-- An index of the result array is in point `t`'s block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- THE COVER: row `r` of the result lies in the block of point `r / 1024`, and every point writes back. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  have hq : (i 0).val / 1024 < cfg0.N := by rw [hN]; omega
  refine ⟨⟨(i 0).val / 1024, hq⟩, flush0_3 _, ?_⟩
  rw [mem_block]
  obtain ⟨-, -, -, -, -, -, e0, e1⟩ := Carried.idx_facts ⟨(i 0).val / 1024, hq⟩
  intro a
  match a with
  | ⟨0, _⟩ =>
    show win0_3.index ⟨(i 0).val / 1024, hq⟩ 0 * 1024 ≤ (i 0).val
      ∧ (i 0).val < win0_3.index ⟨(i 0).val / 1024, hq⟩ 0 * 1024 + 1024
    rw [e0]; dsimp only; omega
  | ⟨1, _⟩ =>
    show win0_3.index ⟨(i 0).val / 1024, hq⟩ 1 * 1024 ≤ (i 1).val
      ∧ (i 1).val < win0_3.index ⟨(i 0).val / 1024, hq⟩ 1 * 1024 + 1024
    rw [e1]; omega

/-- THE ARRAY after the run is the layer's function of the arguments. -/
theorem final (c : Dev nD) : (dats m 0 c).arrAt 3 cfg0.N = result m c :=
  (dats m 0 c).arrAt_eq_of_cover 3 (result m c) (fun t _ => flushed_eq m c t) covered

/-- The run, read: the result array at the layer's function, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Layer

end
-- ==== Proof.RefLayer.lean ====
/-
  The reference computes the layer's function.

  Read one operation at a time: the host's `sign` of a weight, compared with the zero word, selects the one word
  or the sign itself — that is `β` of the weight, term for term; the `dot_general` contracts axis 1 of `x` with
  axis 1 of the binarized weights, so its entry `(r, o)` is the sum over `k` of `x[r, k] · β(w[o, k])`; the two
  broadcasts carry `b[o]` to every row; the last operation adds. Only the index functions of the generated
  read-at-an-index lemmas have to be identified with the coordinates `(r, k)`, `(o, k)` and `o`.
-/
import proofs.«128803_j81999515615872_1_alg».proof.Proof.Gen.ReferenceIdeal.Read
import proofs.«128803_j81999515615872_1_alg».proof.Proof.Spec

noncomputable section

open Idealize.ShloMosaic Idealize.ShloMosaic.ValueIdx

namespace Cert.ReferenceIdeal.Layer

open Cert.ReferenceIdeal Cert.ReferenceIdeal.Read

/-- The left operand of the contraction at entry `(r, o)`, term `k`, is `x[r, k]`. -/
theorem lhs_at (r : Fin 32768) (o k : Fin 1024) : lidx_main_v4 (ix2 r o) k = ix2 r k :=
  funext fun a => Fin.ext (by match a with | ⟨0, _⟩ => rfl | ⟨1, _⟩ => rfl)

/-- The right operand there is row `o` of the binarized weights, at `k`. -/
theorem rhs_at (r : Fin 32768) (o k : Fin 1024) : ridx_main_v4 (ix2 r o) k = ix2 o k :=
  funext fun a => Fin.ext (by match a with | ⟨0, _⟩ => rfl | ⟨1, _⟩ => rfl)

/-- The bias broadcast twice reads `b[o]` at entry `(r, o)`. -/
theorem bias_at (r : Fin 32768) (o : Fin 1024) : idx_main_v5 (idx_main_v6 (ix2 r o)) = ix1 o :=
  funext fun a => Fin.ext (by match a with | ⟨0, _⟩ => rfl)

/-- The reference's last stage is the layer's function of the three arguments. -/
theorem stage_eq (x0 : (⟨S32768x1024, .f32⟩ : BufTy).Contents (Elt Ideal)) (x1 : (⟨S1024x1024, .f32⟩ : BufTy).Contents (Elt Ideal))
    (x2 : (⟨S1024, .f32⟩ : BufTy).Contents (Elt Ideal)) :
    val_main_v7 (F := Ideal) x0 x1 x2 = BinLinear.out x0 x1 x2 := by
  funext i
  obtain ⟨r, o, rfl⟩ : ∃ (r : Fin 32768) (o : Fin 1024), i = ix2 r o := ⟨i 0, i 1, eq_ix2 i⟩
  rw [val_main_v7_apply, val_main_v4_apply, val_main_v6_apply, val_main_v5_apply, BinLinear.out_apply]
  simp only [val_main_v3_apply, val_main_v2_apply, val_main_v0_apply, val_main_v1_apply, val_main_cst_apply,
    val_main_call0_v0_apply, val_main_cst_0_apply, lhs_at, rhs_at, bias_at]
  rfl

end Cert.ReferenceIdeal.Layer

end
-- ==== Proof.lean ====
/-
  A binarized linear layer: `y = x · β(w)ᵀ + b` for `x` of 32768 rows and 1024 features, `w` a 1024 × 1024 weight
  matrix stored output-major and `b` a bias vector, where `β` is the sign with its zero replaced by one.

  The kernel walks 32 blocks of 1024 rows. At the first block it binarizes the weights, transposes them and keeps the
  matrix resident; at every block it multiplies the block of `x` by the resident matrix and adds the bias row. The
  reference binarizes the weights, contracts the feature axes of `x` and of the binarized weights, and adds the bias.

  Over the extended reals the two are one function, entry by entry:
      y[r, o] = (∑ₖ x[r, k] · β(w[o, k])) + b[o].
  On the kernel's side the resident matrix holds `β(w[o, k])` at `(k, o)` after every point (an induction over the
  grid), each point writes its block of rows of that one function, and the 32 blocks cover the result. On the
  reference's side the stages are read one at a time. The two spellings of the sign — the kernel's "one with the sign
  of `w` where `|w| > 0`, else `w`" and the host's sign function — are the same function of an extended real, both
  infinities included; the contraction is the same finite sum of the same products; the changes of float format are the
  identity. No law used needs the inputs to be finite, so the precondition is not opened.

  The three frames are the generated ones (the reference's is its run with the result dropped); the one rewrite of the
  idealization — reading a sign bit as a comparison with zero — is the rule's own statement.
-/
import proofs.«128803_j81999515615872_1_alg».proof.Defs
import proofs.«128803_j81999515615872_1_alg».proof.Proof.Gen.Kernel
import proofs.«128803_j81999515615872_1_alg».proof.Proof.Gen.Kernel.Skeleton
import proofs.«128803_j81999515615872_1_alg».proof.Proof.Gen.Kernel.Launch
import proofs.«128803_j81999515615872_1_alg».proof.Proof.Gen.Kernel.Points
import proofs.«128803_j81999515615872_1_alg».proof.Proof.Gen.Kernel.Frame
import proofs.«128803_j81999515615872_1_alg».proof.Proof.Gen.KernelIdeal
import proofs.«128803_j81999515615872_1_alg».proof.Proof.Gen.KernelIdeal.Skeleton
import proofs.«128803_j81999515615872_1_alg».proof.Proof.Gen.KernelIdeal.Launch
import proofs.«128803_j81999515615872_1_alg».proof.Proof.Gen.KernelIdeal.Points
import proofs.«128803_j81999515615872_1_alg».proof.Proof.Gen.KernelIdeal.Frame
import proofs.«128803_j81999515615872_1_alg».proof.Proof.Gen.ReferenceIdeal
import proofs.«128803_j81999515615872_1_alg».proof.Proof.Gen.Pre_finite_inputs
import proofs.«128803_j81999515615872_1_alg».proof.Proof.Gen.KernelIdeal.Value
import proofs.«128803_j81999515615872_1_alg».proof.Proof.Gen.ReferenceIdeal.Run
import proofs.«128803_j81999515615872_1_alg».proof.Proof.Gen.ReferenceIdeal.Read
import proofs.«128803_j81999515615872_1_alg».proof.Proof.KernelLayer
import proofs.«128803_j81999515615872_1_alg».proof.Proof.RefLayer
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: one carrying the sign bit of `w` is `-1` where `w < 0` and `1` elsewhere. -/
theorem preserves : Cert.preserves_Kernel_KernelIdeal := IdealRules.sign_bit.statement Cert.KernelIdeal.S1024x1024 .f32

/-- Over the extended reals both programs end with the layer's function of arguments that agree. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Layer.stage_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
